-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4x8192x8192 : S_.BroadcastsInDim S4x8192x8192 (![] : Fin 0 → Fin S4x8192x8192.rank)
  reducesTo_S4x8192x8192_S_d0_1_2 : S4x8192x8192.ReducesTo [0, 1, 2] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S4x8192x8192 .f32) (main_arg2 : FVec F S128x128 .f32) (main_arg3 : FVec F S4x128x128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4x8192x8192 .f32 := Host.absf main_arg1
  let main_cst_0 : FVec F S_ .f32 := constant S_ .f32 0x7F800000#32
  let main_v5 : FVec F S4x8192x8192 .f32 := broadcastInDim S4x8192x8192 ![] bcast_S_S4x8192x8192 main_cst_0
  let main_v6 : IVec S4x8192x8192 1 := cmpf .olt main_v4 main_v5
  let main_c_1 : IVec S_ 1 := constantI S_ 1 1#1
  let main_v7 : IVec S_ 1 := (fun x v => Host.reduce IntOp.andi x v reducesTo_S4x8192x8192_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_v13 main_v16
-- ==== Kernel.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S1x128 : Shape := ⟨2, ![1, 128]⟩
abbrev S1x512x8192 : Shape := ⟨3, ![1, 512, 8192]⟩
abbrev S512x128 : Shape := ⟨2, ![512, 128]⟩
abbrev S1x512x2048 : Shape := ⟨3, ![1, 512, 2048]⟩
abbrev S512x2048 : Shape := ⟨2, ![512, 2048]⟩
abbrev S2048x128 : Shape := ⟨2, ![2048, 128]⟩
abbrev S1x128x128 : Shape := ⟨3, ![1, 128, 128]⟩

abbrev nBuf : Space → Nat
  | .hbm => 10
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S4x8192x8192, .f32⟩
  | .hbm, ⟨2, _⟩ => ⟨S128x128, .f32⟩
  | .hbm, ⟨3, _⟩ => ⟨S4x128x128, .f32⟩
  | .hbm, ⟨4, _⟩ => ⟨S128, .f32⟩
  | .hbm, ⟨5, _⟩ => ⟨S8192x128, .bf16⟩
  | .hbm, ⟨6, _⟩ => ⟨S128x128, .bf16⟩
  | .hbm, ⟨7, _⟩ => ⟨S4x128x128, .bf16⟩
  | .hbm, ⟨8, _⟩ => ⟨S1x128, .f32⟩
  | .hbm, ⟨9, _⟩ => ⟨S8192x128, .f32⟩
  | .local _ .vmem, ⟨0, _⟩ => ⟨S8192x128, .bf16⟩
  | .local _ .vmem, ⟨1, _⟩ => ⟨S128x128, .bf16⟩
  | .local _ .vmem, ⟨2, _⟩ => ⟨S4x128x128, .bf16⟩
  | .local _ .vmem, ⟨3, _⟩ => ⟨S1x128, .f32⟩
  | .local _ .vmem, ⟨4, _⟩ => ⟨S1x512x8192, .f32⟩
  | .local _ .vmem, ⟨5, _⟩ => ⟨S1x512x8192, .f32⟩
  | .local _ .vmem, ⟨6, _⟩ => ⟨S512x128, .f32⟩
  | .local _ .vmem, ⟨7, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v64 : Index := Scalar.indexCast v1
  let c0_30 : Index := 0#32
  ![v64.toNat, 0]
def k0_mult2 : BitVec 32 :=
  let c0_i32_1 : BitVec 32 := 0#32
  let c2048_i32 : BitVec 32 := 2048#32
  let v6 : BitVec 32 := Scalar.muli c0_i32_1 c2048_i32
  v6
def k0_off2 (c0_i32_1 : BitVec 32) : Fin 3 → Nat :=
  let c0 : Index := 0#32
  let c0_2 : Index := 0#32
  let c2048_i32 : BitVec 32 := 2048#32
  let v6 : BitVec 32 := Scalar.muli c0_i32_1 c2048_i32
  let v7 : BitVec 32 := v6
  let v8 : Index := Scalar.indexCast v7
  ![0, 0, v8.toNat]
def k0_off3 (c0_i32_1 : BitVec 32) : Fin 2 → Nat :=
  let c2048_i32 : BitVec 32 := 2048#32
  let v6 : BitVec 32 := Scalar.muli c0_i32_1 c2048_i32
  let v7 : BitVec 32 := v6
  let v12 : Index := Scalar.indexCast v7
  let c0_3 : Index := 0#32
  ![v12.toNat, 0]
def k0_mult3 : BitVec 32 :=
  let c1_i32 : BitVec 32 := 1#32
  let c2048_i32_5 : BitVec 32 := 2048#32
  let v17 : BitVec 32 := Scalar.muli c1_i32 c2048_i32_5
  v17
def k0_mult4 : BitVec 32 :=
  let c2_i32 : BitVec 32 := 2#32
  let c2048_i32_10 : BitVec 32 := 2048#32
  let v28 : BitVec 32 := Scalar.muli c2_i32 c2048_i32_10
  v28
def k0_mult5 : BitVec 32 :=
  let c3_i32 : BitVec 32 := 3#32
  let c2048_i32_15 : BitVec 32 := 2048#32
  let v39 : BitVec 32 := Scalar.muli c3_i32 c2048_i32_15
  v39
def k0_off4 (i : grid0.Coords) : Fin 3 → Nat :=
  let arg1 : BitVec 32 := BitVec.ofNat 32 (i 1).val
  let v51 : Index := Scalar.indexCast arg1
  let c0_20 : Index := 0#32
  let c0_21 : Index := 0#32
  ![v51.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S128_S1x128 : S128.ShapeCasts S1x128
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x128_S512x128_0_0 : ∀ a, (![0, 0] : Fin 2 → Nat) a + S512x128.size a ≤ S512x128.size a
  h_S1x512x2048 : 0 < S1x512x2048.numel
  shapeCasts_S1x512x2048_S512x2048 : S1x512x2048.ShapeCasts S512x2048
  h_S2048x128 : 0 < S2048x128.numel
  shapeCasts_S2048x128_S2048x128 : S2048x128.ShapeCasts S2048x128
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x128_S128x128_S512x128_1_0_0_1_n_n_wf : DotDims.WF S512x128 S128x128 S512x128 [1] [0] [0] [1] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ (k0_h1 : k0_cond1 i = 1#1), ∀ a, (k0_off1 i) a + S512x128.size a ≤ S8192x128.size a
  k0_mult2_dvd : 2048 ∣ k0_mult2.toNat
  k0_off2_inb : ∀ (r : Fin 4), ∀ a, (k0_off2 (BitVec.ofNat 32 r.val)) a + S1x512x2048.size a ≤ S1x512x8192.size a
  k0_off3_inb : ∀ (r : Fin 4), ∀ a, (k0_off3 (BitVec.ofNat 32 r.val)) a + S2048x128.size a ≤ S8192x128.size a
  k0_mult3_dvd : 2048 ∣ k0_mult3.toNat
  k0_mult4_dvd : 2048 ∣ k0_mult4.toNat
  k0_mult5_dvd : 2048 ∣ k0_mult5.toNat
  k0_off4_inb : ∀ i : grid0.Coords, ∀ a, (k0_off4 i) a + S1x128x128.size a ≤ S4x128x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .bf16 = 32 ∨ (Rect.block (s := S4x128x128) S4x128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x8192.size a ≤ S4x8192x8192.size a
  hwx0_4 : ∀ i : grid0.Coords, EltTy.bits .f32 = 32 ∨ (Rect.block (s := S4x8192x8192) S1x512x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x512x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S4x8192x128 : Shape := ⟨3, ![4, 8192, 128]⟩
abbrev S_ : Shape := ⟨0, ![]⟩
abbrev S1x128 : Shape := ⟨2, ![1, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4x8192x8192, .f32⟩
  | .hbm, ⟨2, _⟩ => ⟨S128x128, .f32⟩
  | .hbm, ⟨3, _⟩ => ⟨S4x128x128, .f32⟩
  | .hbm, ⟨4, _⟩ => ⟨S128, .f32⟩
  | .hbm, ⟨5, _⟩ => ⟨S8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S4x8192x128 : S_.BroadcastsInDim S4x8192x128 (![] : Fin 0 → Fin S4x8192x128.rank)
  reducesTo_S4x8192x128_S8192x128_d0 : S4x8192x128.ReducesTo [0] S8192x128
  h_S_ : 0 < S_.numel
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S4x8192x8192_S8192x128_S4x8192x128_2_0_01_1_n_n_wf : DotDims.WF S4x8192x8192 S8192x128 S4x8192x128 [2] [0] [0, 1] [1] [] []
  dot_S4x8192x128_S4x128x128_S4x8192x128_2_1_1_2_0_0_wf : DotDims.WF S4x8192x128 S4x128x128 S4x8192x128 [2] [1] [1] [2] [0] [0]

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4x8192x8192_S8192x128_S4x8192x128_2_0_01_1_n_n : DotDims S4x8192x8192 S8192x128 S4x8192x128 where
  lhsContracting := [2]
  rhsContracting := [0]
  lhsNonContracting := [0, 1]
  rhsNonContracting := [1]
  lhsBatch := []
  rhsBatch := []
  wf := dot_S4x8192x8192_S8192x128_S4x8192x128_2_0_01_1_n_n_wf
def dot_S4x8192x128_S4x128x128_S4x8192x128_2_1_1_2_0_0 : DotDims S4x8192x128 S4x128x128 S4x8192x128 where
  lhsContracting := [2]
  rhsContracting := [1]
  lhsNonContracting := [1]
  rhsNonContracting := [2]
  lhsBatch := [0]
  rhsBatch := [0]
  wf := dot_S4x8192x128_S4x128x128_S4x8192x128_2_1_1_2_0_0_wf

class Facts : Prop extends Facts₀ where

variable [Facts]
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.Spec.lean ====
/-
  The layer as one function of its five arrays, over the extended reals.

  For features X [8192, 128], four adjacency matrices A_c [8192, 8192], weights W [128, 128], per-channel weights
  Wa_c [128, 128] and a bias b [128], the layer's entry at node n and output feature o is

      max ( X W [n, o]  +  sum over c of  max ( (A_c X) Wa_c [n, o], 0 )  +  b[o] ,  0 ).

  `agg` is (A_c X)[n, f], `msg` one channel's clamped product, `self` the rows' own product, `acc k` the sum of
  `self` and the channels 0 to k taken one after the other, `out` the closed entry. Two regroupings of sums join the two
  programs, and both hold in any commutative additive monoid, so no entry needs to be finite: a sum over 8192
  columns is the sum of its four runs of 2048 columns added one after the other to zero, and the four channels added
  one after the other to `self` are `self` plus (zero plus the sum over the channels).
-/
import Idealize.ShloMosaic.PureOps.Ideal.Laws
import Idealize.ShloMosaic.Lib.ValueIdx
import proofs.«157931_j77206332113740_2_alg».proof.Proof.LibTileSum

noncomputable section

namespace Cert.Layer

open Idealize.ShloMosaic Idealize.ShloMosaic.ValueIdx

/-- The zero every sum starts from and every clamp compares with. -/
abbrev zero : EReal := Ideal.ofBits .f32 0x00000000#32

theorem zero_eq : zero = 0 := Ideal.ofBits_zero_f32

/-- The channel a step counts: the step number modulo 4. -/
def chan (k : ℕ) : Fin 4 := ⟨k % 4, Nat.mod_lt _ (by decide)⟩

/-- Row `r` of row tile `tile` (512 rows each) as a node. -/
def rowAt (tile : ℕ) (r : Fin 512) : Fin 8192 := ⟨(512 * tile + r.val) % 8192, Nat.mod_lt _ (by decide)⟩

theorem eight_k : 8192 = 4 * 2048 := rfl

section
variable (X : (⟨2, ![8192, 128]⟩ : Shape).Idx → EReal) (A : (⟨3, ![4, 8192, 8192]⟩ : Shape).Idx → EReal)
  (W : (⟨2, ![128, 128]⟩ : Shape).Idx → EReal) (Wa : (⟨3, ![4, 128, 128]⟩ : Shape).Idx → EReal)
  (bias : (⟨1, ![128]⟩ : Shape).Idx → EReal)

/-- (A_c X)[n, f]. -/
def agg (ch : Fin 4) (n : Fin 8192) (f : Fin 128) : EReal := ∑ h : Fin 8192, A (ix3 ch n h) * X (ix2 h f)

/-- One channel's message to node `n`, feature `o`: ((A_c X) Wa_c)[n, o] clamped below at zero. -/
def msg (ch : Fin 4) (n : Fin 8192) (o : Fin 128) : EReal := max (∑ f : Fin 128, agg X A ch n f * Wa (ix3 ch f o)) zero

/-- (X W)[n, o]. -/
def self (n : Fin 8192) (o : Fin 128) : EReal := ∑ f : Fin 128, X (ix2 n f) * W (ix2 f o)

/-- `self` and the channels 0 to `k`, added one after the other. -/
def acc : ℕ → Fin 8192 → Fin 128 → EReal
  | 0, n, o => self X W n o + msg X A Wa (chan 0) n o
  | k + 1, n, o => acc k n o + msg X A Wa (chan (k + 1)) n o

/-- The layer's entry. -/
def out (n : Fin 8192) (o : Fin 128) : EReal := max (acc X A W Wa 3 n o + bias (ix1 o)) zero

/-- The layer's result array. -/
def result : (⟨2, ![8192, 128]⟩ : Shape).Idx → EReal := fun i => out X A W Wa bias (i 0) (i 1)

/-- What a row's tile holds after step `k` of the grid (row tile `k / 4`, channel `k % 4`). -/
def staged (k : ℕ) (n : Fin 8192) (o : Fin 128) : EReal :=
  if k % 4 = 3 then out X A W Wa bias n o else acc X A W Wa (k % 4) n o

theorem acc_zero (n : Fin 8192) (o : Fin 128) : acc X A W Wa 0 n o = self X W n o + msg X A Wa (chan 0) n o := rfl

theorem acc_succ (k : ℕ) (n : Fin 8192) (o : Fin 128) :
    acc X A W Wa (k + 1) n o = acc X A W Wa k n o + msg X A Wa (chan (k + 1)) n o := rfl

/-- The four channels added one after the other are `self` plus (zero plus the sum over the channels). -/
theorem acc_three (n : Fin 8192) (o : Fin 128) :
    acc X A W Wa 3 n o = self X W n o + (zero + ∑ ch : Fin 4, msg X A Wa ch n o) := by
  rw [Fin.sum_univ_four, zero_eq, zero_add]
  simp only [acc]
  show self X W n o + msg X A Wa 0 n o + msg X A Wa 1 n o + msg X A Wa 2 n o + msg X A Wa 3 n o = _
  simp only [add_assoc]

end

/-- A sum over 8192 columns is its four runs of 2048 columns added one after the other to zero. -/
theorem runs_sum (g : Fin 8192 → EReal) :
    zero + (∑ k : Fin 2048, g (TileSum.tileIdx eight_k 0 k)) + (∑ k : Fin 2048, g (TileSum.tileIdx eight_k 1 k))
        + (∑ k : Fin 2048, g (TileSum.tileIdx eight_k 2 k)) + (∑ k : Fin 2048, g (TileSum.tileIdx eight_k 3 k))
      = ∑ h : Fin 8192, g h := by
  rw [TileSum.sum_tiles eight_k g, Fin.sum_univ_four, zero_eq, zero_add]

end Cert.Layer

end
-- ==== Proof.Blocks.lean ====
/-
  What the step's blocks hold, in terms of the argument arrays.

  Grid point t is row tile t / 4, channel t % 4. The feature matrix, the two weight arrays and the bias are each one
  block, the whole array, at every point; the region finds the first three converted to a narrower float format and
  the bias recast as one row, and over the extended reals neither changes an entry. The adjacency block at point t is
  rows 512 (t / 4) to 512 (t / 4) + 511 of channel t % 4, all 8192 columns.
-/
import proofs.«157931_j77206332113740_2_alg».proof.Proof.Gen.KernelIdeal.Frame
import proofs.«157931_j77206332113740_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Body

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid point's coordinates: row tile t / 4, channel t % 4. -/
theorem coords_facts : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The block indices of the six windows at a point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val % 4 ∧ win0_4.index t (1 : Fin 3) = t.val / 4 ∧ win0_4.index t (2 : Fin 3) = 0
    ∧ win0_5.index t (0 : Fin 2) = t.val / 4 ∧ win0_5.index t (1 : Fin 2) = 0 :=
  (by decide +kernel : ∀ t : Fin grid0.N, _)

/-- The region finds the feature matrix converted to the narrower format: entry by entry the argument. -/
theorem V_features (c : Dev nD) (j : S8192x128.Idx) :
    (V m c main_v0 : S8192x128.Idx → EReal) j = m ((c : Thread nD τ).loc main_arg0) j := by
  have e : (V m c main_v0 : S8192x128.Idx → EReal)
      = truncf (F := Ideal) .bf16 (m ((c : Thread nD τ).loc main_arg0)) bitsLt_bf16_f32 := by
    dsimp only [V, hostOps0]; after_results <;> rfl
  rw [e]; rfl

theorem V_weights (c : Dev nD) (j : S128x128.Idx) :
    (V m c main_v1 : S128x128.Idx → EReal) j = m ((c : Thread nD τ).loc main_arg2) j := by
  have e : (V m c main_v1 : S128x128.Idx → EReal)
      = truncf (F := Ideal) .bf16 (m ((c : Thread nD τ).loc main_arg2)) bitsLt_bf16_f32 := by
    dsimp only [V, hostOps0]; after_results <;> rfl
  rw [e]; rfl

theorem V_chanWeights (c : Dev nD) (j : S4x128x128.Idx) :
    (V m c main_v2 : S4x128x128.Idx → EReal) j = m ((c : Thread nD τ).loc main_arg3) j := by
  have e : (V m c main_v2 : S4x128x128.Idx → EReal)
      = truncf (F := Ideal) .bf16 (m ((c : Thread nD τ).loc main_arg3)) bitsLt_bf16_f32 := by
    dsimp only [V, hostOps0]; after_results <;> rfl
  rw [e]; rfl

/-- The region finds the bias recast as one row: at (0, o) the bias at o. -/
theorem V_bias (c : Dev nD) (o : Fin 128) :
    (V m c main_v3 : S1x128.Idx → EReal) (ix2 (0 : Fin 1) o) = m ((c : Thread nD τ).loc main_arg4) (ix1 o) := by
  have e : (V m c main_v3 : S1x128.Idx → EReal)
      = shapeCast S1x128 (m ((c : Thread nD τ).loc main_arg4)) shapeCasts_S128_S1x128 := by
    dsimp only [V, hostOps0]; after_results <;> rfl
  rw [e]
  exact shapeCast_a_1a_apply _ _ 0 o

/-- The feature block is the whole feature matrix, at every point. -/
theorem iblk_features (c : Dev nD) (t : Fin cfg0.N) (h : Fin 8192) (f : Fin 128) :
    (iblk m c 0 t : Vec Ideal S8192x128 .bf16) (ix2 h f) = m ((c : Thread nD τ).loc main_arg0) (ix2 h f) := by
  obtain ⟨e0, e1, -⟩ := index_facts t
  unfold iblk
  rw [View.read_apply]
  show V m c main_v0 (((cfg0.win 0).blk t).view.emb (ix2 h f)) = _
  rw [V_features]
  refine congrArg _ (funext fun a => Fin.ext ?_)
  match a with
  | ⟨0, _⟩ => show win0_0.index t (0 : Fin 2) * 8192 + 1 * h.val = h.val; omega
  | ⟨1, _⟩ => show win0_0.index t (1 : Fin 2) * 128 + 1 * f.val = f.val; omega

/-- The weight block is the whole weight matrix. -/
theorem iblk_weights (c : Dev nD) (t : Fin cfg0.N) (f o : Fin 128) :
    (iblk m c 1 t : Vec Ideal S128x128 .bf16) (ix2 f o) = m ((c : Thread nD τ).loc main_arg2) (ix2 f o) := by
  obtain ⟨-, -, e0, e1, -⟩ := index_facts t
  unfold iblk
  rw [View.read_apply]
  show V m c main_v1 (((cfg0.win 1).blk t).view.emb (ix2 f o)) = _
  rw [V_weights]
  refine congrArg _ (funext fun a => Fin.ext ?_)
  match a with
  | ⟨0, _⟩ => show win0_1.index t (0 : Fin 2) * 128 + 1 * f.val = f.val; omega
  | ⟨1, _⟩ => show win0_1.index t (1 : Fin 2) * 128 + 1 * o.val = o.val; omega

/-- The per-channel weight block is the whole stack of four. -/
theorem iblk_chanWeights (c : Dev nD) (t : Fin cfg0.N) (ch : Fin 4) (f o : Fin 128) :
    (iblk m c 2 t : Vec Ideal S4x128x128 .bf16) (ix3 ch f o) = m ((c : Thread nD τ).loc main_arg3) (ix3 ch f o) := by
  obtain ⟨-, -, -, -, e0, e1, e2, -⟩ := index_facts t
  unfold iblk
  rw [View.read_apply]
  show V m c main_v2 (((cfg0.win 2).blk t).view.emb (ix3 ch f o)) = _
  rw [V_chanWeights]
  refine congrArg _ (funext fun a => Fin.ext ?_)
  match a with
  | ⟨0, _⟩ => show win0_2.index t (0 : Fin 3) * 4 + 1 * ch.val = ch.val; omega
  | ⟨1, _⟩ => show win0_2.index t (1 : Fin 3) * 128 + 1 * f.val = f.val; omega
  | ⟨2, _⟩ => show win0_2.index t (2 : Fin 3) * 128 + 1 * o.val = o.val; omega

/-- The bias block is the bias, as one row. -/
theorem iblk_bias (c : Dev nD) (t : Fin cfg0.N) (o : Fin 128) :
    (iblk m c 3 t : Vec Ideal S1x128 .f32) (ix2 (0 : Fin 1) o) = m ((c : Thread nD τ).loc main_arg4) (ix1 o) := by
  obtain ⟨-, -, -, -, -, -, -, e0, e1, -⟩ := index_facts t
  unfold iblk
  rw [View.read_apply]
  show V m c main_v3 (((cfg0.win 3).blk t).view.emb (ix2 (0 : Fin 1) o)) = _
  refine Eq.trans ?_ (V_bias m c o)
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 128 + 1 * o.val = o.val; omega

/-- The adjacency block at point t: channel t % 4, rows of row tile t / 4, every column. -/
theorem iblk_adjacency (c : Dev nD) (t : Fin cfg0.N) (r : Fin 512) (h : Fin 8192) :
    (iblk m c 4 t : Vec Ideal S1x512x8192 .f32) (ix3 (0 : Fin 1) r h)
      = m ((c : Thread nD τ).loc main_arg1) (ix3 (Cert.Layer.chan t.val) (Cert.Layer.rowAt (t.val / 4) r) h) := by
  obtain ⟨-, -, -, -, -, -, -, -, -, e0, e1, e2, -⟩ := index_facts t
  have hN : t.val < 64 := lt_of_lt_of_eq t.isLt (show cfg0.N = 64 from N_0)
  unfold iblk
  rw [View.read_apply]
  show V m c main_arg1 (((cfg0.win 4).blk t).view.emb (ix3 (0 : Fin 1) r h)) = _
  rw [V_main_arg1]
  refine congrArg _ (funext fun a => Fin.ext ?_)
  have hr := r.isLt
  match a with
  | ⟨0, _⟩ => show win0_4.index t (0 : Fin 3) * 1 + 1 * 0 = t.val % 4; omega
  | ⟨1, _⟩ => show win0_4.index t (1 : Fin 3) * 512 + 1 * r.val = (512 * (t.val / 4) + r.val) % 8192; omega
  | ⟨2, _⟩ => show win0_4.index t (2 : Fin 3) * 8192 + 1 * h.val = h.val; omega

end Cert.KernelIdeal.Body

end
-- ==== Proof.Cases.lean ====
/-
  What one grid step leaves in the output tile, case by case.

  Every step adds one channel's clamped product into the tile (`step`). A step at channel 0 first sets the tile to the
  rows' own product X W and adds into that; a step at channels 1 and 2 adds into what the step before left; a step at
  channel 3 adds into what the step before left and then closes the tile with the bias and the final clamp. The
  factors of the products are loads of the step's blocks: the adjacency tile's four column ranges of width 2048, the
  matching four row ranges of the feature matrix, the channel's own [128, 128] slice of the stacked weights, and — at
  channel 0 — the tile's own 512 rows of the feature matrix.
-/
import proofs.«157931_j77206332113740_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl

/-- Columns `2048 j` to `2048 j + 2047` of the adjacency tile. -/
abbrev adjCols (j : Fin 4) : Rect S1x512x8192 :=
  Rect.unit ![0, 0, 2048 * j.val] S1x512x2048.size (by decide +revert)

/-- Rows `2048 j` to `2048 j + 2047` of the feature matrix. -/
abbrev featRows (j : Fin 4) : Rect S8192x128 :=
  Rect.unit ![2048 * j.val, 0] S2048x128.size (by decide +revert)

/-- One step's addition into the tile holding `prev`: the payload of the accumulating store over the step's loads. -/
def step (i : grid0.Coords) (x0 : Vec F S8192x128 .bf16) (x2 : Vec F S4x128x128 .bf16) (x4 : Vec F S1x512x8192 .f32)
    (prev : Vec F S512x128 .f32) : Vec F S512x128 .f32 :=
  k0_pay1
    (k0_pay4 (View.ld x4 (adjCols 0)) (View.ld x0 (featRows 0)) (View.ld x4 (adjCols 1)) (View.ld x0 (featRows 1)))
    (k0_pay5 (View.ld x4 (adjCols 2))) (View.ld x0 (featRows 2))
    (View.ld x4 (adjCols 3)) (View.ld x0 (featRows 3))
    (View.ld x2 (Rect.unit (k0_off4 i) S1x128x128.size (k0_off4_inb i)))
    prev

/-- CHANNELS 1 AND 2: the step adds into what the step before left. -/
theorem out_middle (c : Dev nD) (i : grid0.Coords) (arg2 : Memref sig .tc .vmem S8192x128 .bf16) (harg2 : arg2.IsWhole) (arg3 : Memref sig .tc .vmem S128x128 .bf16) (harg3 : arg3.IsWhole) (arg4 : Memref sig .tc .vmem S4x128x128 .bf16) (harg4 : arg4.IsWhole) (arg5 : Memref sig .tc .vmem S1x128 .f32) (harg5 : arg5.IsWhole) (arg6 : Memref sig .tc .vmem S1x512x8192 .f32) (harg6 : arg6.IsWhole) (arg7 : Memref sig .tc .vmem S512x128 .f32) (harg7 : arg7.IsWhole) (hc0 : ¬cond0_0 i) (hc1 : ¬cond0_1 i)
    (x0 : Vec F S8192x128 .bf16) (x1 : Vec F S128x128 .bf16) (x2 : Vec F S4x128x128 .bf16) (x3 : Vec F S1x128 .f32) (x4 : Vec F S1x512x8192 .f32) (xo5 : Vec F S512x128 .f32) :
    out0_B_5 c i arg2 harg2 arg3 harg3 arg4 harg4 arg5 harg5 arg6 harg6 arg7 harg7 hc0 hc1 x0 x1 x2 x3 x4 xo5
      = step i x0 x2 x4 xo5 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  rw [View.canon_unit_zero (S := S512x128) zeros2]
  sl_unfold_run_names
  simp only [View.readAt_eq_ld, harg2.read_unread, harg4.read_unread, harg6.read_unread, harg7.read_unread,
    View.ld_unit_zero (S := S512x128) zeros2]
  rfl

/-- CHANNEL 0: the tile is set to the rows' own product — the tile's 512 rows of the feature matrix times the weights
    `x1` — and the step adds into that. -/
theorem out_first (c : Dev nD) (i : grid0.Coords) (arg2 : Memref sig .tc .vmem S8192x128 .bf16) (harg2 : arg2.IsWhole) (arg3 : Memref sig .tc .vmem S128x128 .bf16) (harg3 : arg3.IsWhole) (arg4 : Memref sig .tc .vmem S4x128x128 .bf16) (harg4 : arg4.IsWhole) (arg5 : Memref sig .tc .vmem S1x128 .f32) (harg5 : arg5.IsWhole) (arg6 : Memref sig .tc .vmem S1x512x8192 .f32) (harg6 : arg6.IsWhole) (arg7 : Memref sig .tc .vmem S512x128 .f32) (harg7 : arg7.IsWhole) (hc0 : cond0_0 i) (hc1 : ¬cond0_1 i)
    (x0 : Vec F S8192x128 .bf16) (x1 : Vec F S128x128 .bf16) (x2 : Vec F S4x128x128 .bf16) (x3 : Vec F S1x128 .f32) (x4 : Vec F S1x512x8192 .f32) :
    out0_A_5 c i arg2 harg2 arg3 harg3 arg4 harg4 arg5 harg5 arg6 harg6 arg7 harg7 hc0 hc1 x0 x1 x2 x3 x4
      = step i x0 x2 x4 (k0_pay3 (View.ld x0 (Rect.unit (k0_off1 i) S512x128.size (k0_off1_inb i hc0))) x1) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  rw [View.canon_cons_unit_zero (S := S512x128) zeros2]
  sl_unfold_run_names
  rw [View.readCov_unit_zero (S := S512x128) _ zeros2]
  simp only [View.readAt_eq_ld, harg2.read_unread, harg3.read_unread, harg4.read_unread, harg6.read_unread,
    View.ld_unit_zero (S := S128x128) zeros2]
  rfl

/-- CHANNEL 3: the step adds into what the step before left, and the tile is closed with the bias row `x3` and the
    final clamp. -/
theorem out_last (c : Dev nD) (i : grid0.Coords) (arg2 : Memref sig .tc .vmem S8192x128 .bf16) (harg2 : arg2.IsWhole) (arg3 : Memref sig .tc .vmem S128x128 .bf16) (harg3 : arg3.IsWhole) (arg4 : Memref sig .tc .vmem S4x128x128 .bf16) (harg4 : arg4.IsWhole) (arg5 : Memref sig .tc .vmem S1x128 .f32) (harg5 : arg5.IsWhole) (arg6 : Memref sig .tc .vmem S1x512x8192 .f32) (harg6 : arg6.IsWhole) (arg7 : Memref sig .tc .vmem S512x128 .f32) (harg7 : arg7.IsWhole) (hc0 : ¬cond0_0 i) (hc1 : cond0_1 i)
    (x0 : Vec F S8192x128 .bf16) (x1 : Vec F S128x128 .bf16) (x2 : Vec F S4x128x128 .bf16) (x3 : Vec F S1x128 .f32) (x4 : Vec F S1x512x8192 .f32) (xo5 : Vec F S512x128 .f32) :
    out0_C_5 c i arg2 harg2 arg3 harg3 arg4 harg4 arg5 harg5 arg6 harg6 arg7 harg7 hc0 hc1 x0 x1 x2 x3 x4 xo5
      = k0_pay2 x3 (step i x0 x2 x4 xo5) := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  rw [View.canon_cons_unit_zero (S := S512x128) zeros2]
  sl_unfold_run_names
  rw [View.readCov_unit_zero (S := S512x128) _ zeros2]
  simp only [View.readAt_eq_ld, harg2.read_unread, harg4.read_unread, harg5.read_unread, harg6.read_unread,
    harg7.read_unread, View.ld_unit_zero (S := S512x128) zeros2, View.ld_unit_zero (S := S1x128) zeros2]
  rfl

end Cert.KernelIdeal.Body

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Payloads.lean ====
/-
  The arithmetic of one grid step of the layer, read entry by entry over the extended reals.

  A grid step (row tile i, channel c) holds a [512, 8192] tile of the channel's adjacency matrix, the whole feature
  matrix X [8192, 128] and the channel's weight matrix [128, 128]. It forms the tile's aggregate
  (A_c X)[r, f] = sum over k of A_c[r, k] X[k, f] as four partial products over 2048 columns each, added to a zero
  block one after the other; multiplies the aggregate by the channel's weights; clamps the product below at zero; and
  adds the result into the output tile. At channel 0 the tile is first set to the rows' own product X W; at the last
  channel the bias row is added and the sum clamped at zero once more. Over the extended reals a change of float
  format is the identity and a matrix product into a zero accumulator is the plain sum of products, so each stored
  value, read at (r, o), is the expression below.
-/
import proofs.«157931_j77206332113740_2_alg».proof.Proof.Gen.KernelIdeal.Skeleton
import proofs.«157931_j77206332113740_2_alg».proof.Proof.LibColumnBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The zero every accumulator starts from and every clamp compares with. -/
abbrev zero : EReal := Ideal.ofBits .f32 0x00000000#32

local notation "dotK" => dot_S512x2048_S2048x128_S512x128_1_0_0_1_n_n
local notation "dotF" => dot_S512x128_S128x128_S512x128_1_0_0_1_n_n

theorem dotK_l0 (j : S512x128.Idx) (k : (dotK).contr.Idx) : ((dotK).lhsIdx j k 0).val = (j 0).val := by
  unfold DotDims.lhsIdx
  rw [dif_neg (show ¬(0 : Fin S512x2048.rank) ∈ (dotK).lhsBatch by decide),
    dif_pos (show (0 : Fin S512x2048.rank) ∈ (dotK).lhsNonContracting by decide)]
  rfl

theorem dotK_r1 (j : S512x128.Idx) (k : (dotK).contr.Idx) : ((dotK).rhsIdx j k 1).val = (j 1).val := by
  unfold DotDims.rhsIdx
  rw [dif_neg (show ¬(1 : Fin S2048x128.rank) ∈ (dotK).rhsBatch by decide),
    dif_pos (show (1 : Fin S2048x128.rank) ∈ (dotK).rhsNonContracting by decide)]
  rfl

theorem dotF_l0 (j : S512x128.Idx) (k : (dotF).contr.Idx) : ((dotF).lhsIdx j k 0).val = (j 0).val := by
  unfold DotDims.lhsIdx
  rw [dif_neg (show ¬(0 : Fin S512x128.rank) ∈ (dotF).lhsBatch by decide),
    dif_pos (show (0 : Fin S512x128.rank) ∈ (dotF).lhsNonContracting by decide)]
  rfl

theorem dotF_r1 (j : S512x128.Idx) (k : (dotF).contr.Idx) : ((dotF).rhsIdx j k 1).val = (j 1).val := by
  unfold DotDims.rhsIdx
  rw [dif_neg (show ¬(1 : Fin S128x128.rank) ∈ (dotF).rhsBatch by decide),
    dif_pos (show (1 : Fin S128x128.rank) ∈ (dotF).rhsNonContracting by decide)]
  rfl

/-- A [512, 2048] by [2048, 128] product into a zero block, at (r, f): the sum over the 2048 contracted columns. -/
theorem prodK_apply (lhs : FVec Ideal S512x2048 .bf16) (rhs : FVec Ideal S2048x128 .bf16) (r : Fin 512) (f : Fin 128) :
    matmul (dotK) none lhs rhs (constant S512x128 .f32 0x00000000#32) (ix2 r f)
      = ∑ k : Fin 2048, lhs (ix2 r k) * rhs (ix2 k f) :=
  Cert.LibColumnBlocks.matmul_zero_apply (dotK) rfl rfl rfl rfl dotK_l0 dotK_r1 lhs rhs r f none

/-- A [512, 128] by [128, 128] product into a zero block, at (r, o): the sum over the 128 contracted features. -/
theorem prodF_apply (lhs : FVec Ideal S512x128 .bf16) (rhs : FVec Ideal S128x128 .bf16) (r : Fin 512) (o : Fin 128) :
    matmul (dotF) none lhs rhs (constant S512x128 .f32 0x00000000#32) (ix2 r o)
      = ∑ f : Fin 128, lhs (ix2 r f) * rhs (ix2 f o) :=
  Cert.LibColumnBlocks.matmul_zero_apply (dotF) rfl rfl rfl rfl dotF_l0 dotF_r1 lhs rhs r o none

/-- The rows' own product X W, stored at channel 0. -/
theorem selfProduct_apply (v65 : Vec Ideal S512x128 .bf16) (v67 : Vec Ideal S128x128 .bf16) (r : Fin 512) (o : Fin 128) :
    k0_pay3 (F := Ideal) v65 v67 (ix2 r o) = ∑ f : Fin 128, v65 (ix2 r f) * v67 (ix2 f o) := by
  unfold k0_pay3
  simp only [shapeCast_self]
  exact prodF_apply _ _ r o

/-- The aggregate over the first two column tiles, from the zero block. -/
theorem firstTiles_apply (v9 : Vec Ideal S1x512x2048 .f32) (v13 : Vec Ideal S2048x128 .bf16)
    (v20 : Vec Ideal S1x512x2048 .f32) (v24 : Vec Ideal S2048x128 .bf16) (r : Fin 512) (f : Fin 128) :
    k0_pay4 (F := Ideal) v9 v13 v20 v24 (ix2 r f)
      = (zero + ∑ k : Fin 2048, v9 (ix3 (0 : Fin 1) r k) * v13 (ix2 k f))
        + ∑ k : Fin 2048, v20 (ix3 (0 : Fin 1) r k) * v24 (ix2 k f) := by
  unfold k0_pay4
  simp only [shapeCast_self, addf_apply, prodK_apply, truncf_apply, shapeCast_1ab_ab_apply, broadcast_apply]
  rfl

/-- The third column tile's left factor: the adjacency tile's columns 4096 to 6143, its unit axis dropped. -/
theorem thirdTile_apply (v31 : Vec Ideal S1x512x2048 .f32) (r : Fin 512) (k : Fin 2048) :
    k0_pay5 (F := Ideal) v31 (ix2 r k) = v31 (ix3 (0 : Fin 1) r k) := by
  unfold k0_pay5
  simp only [truncf_apply, shapeCast_1ab_ab_apply]

/-- What a step adds into the tile: to the tile's contents `v57`, the clamp at zero of (aggregate) times (the
    channel's weights), the aggregate being the two tiles already summed (`v27`) plus the third and the fourth. -/
theorem accumulate_apply (v27 : FVec Ideal S512x128 .f32) (v33 : FVec Ideal S512x2048 .bf16) (v35 : Vec Ideal S2048x128 .bf16)
    (v42 : Vec Ideal S1x512x2048 .f32) (v46 : Vec Ideal S2048x128 .bf16) (v52 : Vec Ideal S1x128x128 .bf16)
    (v57 : Vec Ideal S512x128 .f32) (r : Fin 512) (o : Fin 128) :
    k0_pay1 (F := Ideal) v27 v33 v35 v42 v46 v52 v57 (ix2 r o)
      = v57 (ix2 r o) + max (∑ f : Fin 128,
          ((v27 (ix2 r f) + ∑ k : Fin 2048, v33 (ix2 r k) * v35 (ix2 k f))
            + ∑ k : Fin 2048, v42 (ix3 (0 : Fin 1) r k) * v46 (ix2 k f)) * v52 (ix3 (0 : Fin 1) f o)) zero := by
  unfold k0_pay1
  simp only [shapeCast_self, addf_apply, maximumf_apply, prodF_apply, prodK_apply, truncf_apply, shapeCast_1ab_ab_apply,
    broadcast_apply]
  rfl

/-- The last channel's closing step: the tile plus the bias row, clamped at zero. -/
theorem finish_apply (v64 : Vec Ideal S1x128 .f32) (v68 : Vec Ideal S512x128 .f32) (r : Fin 512) (o : Fin 128) :
    k0_pay2 (F := Ideal) v64 v68 (ix2 r o) = max (v68 (ix2 r o) + v64 (ix2 (0 : Fin 1) o)) zero := by
  unfold k0_pay2
  simp only [shapeCast_self, addf_apply, maximumf_apply, broadcast_apply, broadcastTo_1b_ab_apply]
  rfl

end Cert.KernelIdeal.Body

end
-- ==== Proof.LibUnitLoads.lean ====
/-
  A load through a unit-stride rectangle read at an index.

  The rectangle takes `size a` consecutive coordinates from `off a` on every axis, so the element the load puts at the
  local index `y` is the contents' element at `off + y`, axis by axis. Stated with the target index as a variable and
  its coordinates as a hypothesis, so that a caller names the index by its coordinates and discharges one equation
  per axis.
-/
import Idealize.ShloMosaic.Lib.Pipeline.Value

noncomputable section

namespace Cert.LibUnitLoads

open Idealize.ShloMosaic

variable {Val : EltTy → Type} {S : Shape} {e : EltTy}

/-- The load at `y` is the contents at the index whose every coordinate is the offset plus `y`'s. -/
theorem ld_unit_apply (X : S.Idx → Val e) (off size : Fin S.rank → ℕ) (inb : ∀ a, off a + size a ≤ S.size a)
    (y : (Rect.unit off size inb).shape.Idx) (k : S.Idx) (hk : ∀ a, (k a).val = off a + (y a).val) :
    View.ld X (Rect.unit off size inb) y = X k :=
  congrArg X (funext fun a => Fin.ext (by
    rw [hk a]
    show off a + 1 * (y a).val = off a + (y a).val
    rw [Nat.one_mul]))

end Cert.LibUnitLoads

end
-- ==== Proof.StepValue.lean ====
/-
  One grid step's addition, in the layer's own terms.

  The four column runs of the adjacency tile and the matching four row runs of the feature matrix are the tile's
  8192 columns and the matrix's 8192 rows cut at multiples of 2048, so the four partial products added one after the
  other to zero are the whole contraction over 8192; with the step's blocks holding the arrays' entries — the
  adjacency tile row r being node `rowAt tile r` of channel ch — the step adds exactly that channel's message.
-/
import proofs.«157931_j77206332113740_2_alg».proof.Proof.Cases
import proofs.«157931_j77206332113740_2_alg».proof.Proof.Payloads
import proofs.«157931_j77206332113740_2_alg».proof.Proof.Spec
import proofs.«157931_j77206332113740_2_alg».proof.Proof.LibUnitLoads

noncomputable section

namespace Cert.KernelIdeal.Body

open Cert.KernelIdeal Cert.KernelIdeal.Gen Idealize.ShloMosaic Idealize.ShloMosaic.ValueIdx
open Cert.LibUnitLoads Cert.TileSum

/-- Column run `j` of the adjacency tile, at (0, r, k): the tile at column `2048 j + k`. -/
theorem ld_adjCols (x4 : Vec Ideal S1x512x8192 .f32) (j : Fin 4) (r : Fin 512) (k : Fin 2048) :
    View.ld x4 (adjCols j) (ix3 (0 : Fin 1) r k) = x4 (ix3 (0 : Fin 1) r (tileIdx Cert.Layer.eight_k j k)) :=
  ld_unit_apply x4 _ _ _ _ _ (fun a => match a with
    | ⟨0, _⟩ => rfl
    | ⟨1, _⟩ => by show r.val = 0 + r.val; omega
    | ⟨2, _⟩ => by show j.val * 2048 + k.val = 2048 * j.val + k.val; omega)

/-- Row run `j` of the feature matrix, at (k, f): the matrix at row `2048 j + k`. -/
theorem ld_featRows (x0 : Vec Ideal S8192x128 .bf16) (j : Fin 4) (k : Fin 2048) (f : Fin 128) :
    View.ld x0 (featRows j) (ix2 k f) = x0 (ix2 (tileIdx Cert.Layer.eight_k j k) f) :=
  ld_unit_apply x0 _ _ _ _ _ (fun a => match a with
    | ⟨0, _⟩ => by show j.val * 2048 + k.val = 2048 * j.val + k.val; omega
    | ⟨1, _⟩ => by show f.val = 0 + f.val; omega)

/-- The channel's slice of the stacked weights, at (0, f, o): the stack at (ch, f, o). -/
theorem ld_chanWeights (i : grid0.Coords) (ch : Fin 4) (hch : (i 1).val = ch.val) (x2 : Vec Ideal S4x128x128 .bf16)
    (f o : Fin 128) :
    View.ld x2 (Rect.unit (k0_off4 i) S1x128x128.size (k0_off4_inb i)) (ix3 (0 : Fin 1) f o) = x2 (ix3 ch f o) :=
  ld_unit_apply x2 _ _ _ _ _ (fun a => by
    have e0 : k0_off4 i 0 = (i 1).val := congrFun (k0_off4_eq i) 0
    have e1 : k0_off4 i 1 = 0 := congrFun (k0_off4_eq i) 1
    have e2 : k0_off4 i 2 = 0 := congrFun (k0_off4_eq i) 2
    match a with
    | ⟨0, _⟩ => show ch.val = k0_off4 i 0 + 0; omega
    | ⟨1, _⟩ => show f.val = k0_off4 i 1 + f.val; omega
    | ⟨2, _⟩ => show o.val = k0_off4 i 2 + o.val; omega)

/-- The tile's own rows of the feature matrix, at (r, f): the matrix at row `512 tile + r`. -/
theorem ld_ownRows (i : grid0.Coords) (tile : ℕ) (ht : (i 0).val = tile) (htile : tile < 16) (hc0 : cond0_0 i)
    (x0 : Vec Ideal S8192x128 .bf16) (r : Fin 512) (f : Fin 128) :
    View.ld x0 (Rect.unit (k0_off1 i) S512x128.size (k0_off1_inb i hc0)) (ix2 r f)
      = x0 (ix2 (Cert.Layer.rowAt tile r) f) :=
  ld_unit_apply x0 _ _ _ _ _ (fun a => by
    have e0 : k0_off1 i 0 = 512 * (i 0).val := congrFun (k0_off1_eq i) 0
    have e1 : k0_off1 i 1 = 0 := congrFun (k0_off1_eq i) 1
    match a with
    | ⟨0, _⟩ =>
      show (512 * tile + r.val) % 8192 = k0_off1 i 0 + r.val
      have := r.isLt
      rw [e0, ht, Nat.mod_eq_of_lt (by omega)]
    | ⟨1, _⟩ => show f.val = k0_off1 i 1 + f.val; omega)

/-- The step at (r, o): the tile's entry plus the clamp at zero of (the whole contraction over 8192) times (the
    channel's weights), summed over the 128 features. -/
theorem step_apply (i : grid0.Coords) (ch : Fin 4) (hch : (i 1).val = ch.val) (x0 : Vec Ideal S8192x128 .bf16)
    (x2 : Vec Ideal S4x128x128 .bf16) (x4 : Vec Ideal S1x512x8192 .f32) (prev : Vec Ideal S512x128 .f32)
    (r : Fin 512) (o : Fin 128) :
    step (F := Ideal) i x0 x2 x4 prev (ix2 r o)
      = prev (ix2 r o) + max (∑ f : Fin 128,
          (∑ h : Fin 8192, x4 (ix3 (0 : Fin 1) r h) * x0 (ix2 h f)) * x2 (ix3 ch f o)) Cert.Layer.zero := by
  unfold step
  rw [accumulate_apply]
  refine congrArg (fun s => prev (ix2 r o) + max s Cert.Layer.zero) (Finset.sum_congr rfl fun f _ => ?_)
  rw [firstTiles_apply, ld_chanWeights i ch hch]
  simp only [thirdTile_apply]
  refine congrArg (· * x2 (ix3 ch f o)) ?_
  refine Eq.trans ?_ (Cert.Layer.runs_sum (fun h => x4 (ix3 (0 : Fin 1) r h) * x0 (ix2 h f)))
  refine congrArg₂ (· + ·) (congrArg₂ (· + ·) (congrArg₂ (· + ·) (congrArg₂ (· + ·) rfl ?_) ?_) ?_) ?_
  all_goals exact Finset.sum_congr rfl fun k _ => by rw [ld_adjCols, ld_featRows]

section
variable (X : (⟨2, ![8192, 128]⟩ : Shape).Idx → EReal) (A : (⟨3, ![4, 8192, 8192]⟩ : Shape).Idx → EReal)
  (W : (⟨2, ![128, 128]⟩ : Shape).Idx → EReal) (Wa : (⟨3, ![4, 128, 128]⟩ : Shape).Idx → EReal)
  (bias : (⟨1, ![128]⟩ : Shape).Idx → EReal)

/-- With the step's blocks holding the arrays' entries, the step adds the channel's message to the tile. -/
theorem step_msg (i : grid0.Coords) (ch : Fin 4) (hch : (i 1).val = ch.val) (tile : ℕ)
    (x0 : Vec Ideal S8192x128 .bf16) (x2 : Vec Ideal S4x128x128 .bf16) (x4 : Vec Ideal S1x512x8192 .f32)
    (prev : Vec Ideal S512x128 .f32)
    (h0 : ∀ h f, x0 (ix2 h f) = X (ix2 h f)) (h2 : ∀ f o, x2 (ix3 ch f o) = Wa (ix3 ch f o))
    (h4 : ∀ r h, x4 (ix3 (0 : Fin 1) r h) = A (ix3 ch (Cert.Layer.rowAt tile r) h)) (r : Fin 512) (o : Fin 128) :
    step (F := Ideal) i x0 x2 x4 prev (ix2 r o) = prev (ix2 r o) + Cert.Layer.msg X A Wa ch (Cert.Layer.rowAt tile r) o := by
  rw [step_apply i ch hch]
  unfold Cert.Layer.msg Cert.Layer.agg
  simp only [h0, h2, h4]

/-- With the blocks holding the arrays' entries, channel 0's first store is the rows' own product. -/
theorem first_self (i : grid0.Coords) (tile : ℕ) (ht : (i 0).val = tile) (htile : tile < 16) (hc0 : cond0_0 i)
    (x0 : Vec Ideal S8192x128 .bf16) (x1 : Vec Ideal S128x128 .bf16)
    (h0 : ∀ h f, x0 (ix2 h f) = X (ix2 h f)) (h1 : ∀ f o, x1 (ix2 f o) = W (ix2 f o)) (r : Fin 512) (o : Fin 128) :
    k0_pay3 (F := Ideal) (View.ld x0 (Rect.unit (k0_off1 i) S512x128.size (k0_off1_inb i hc0))) x1 (ix2 r o)
      = Cert.Layer.self X W (Cert.Layer.rowAt tile r) o := by
  rw [selfProduct_apply]
  unfold Cert.Layer.self
  exact Finset.sum_congr rfl fun f _ => by rw [ld_ownRows i tile ht htile hc0, h0, h1]

/-- With the bias block holding the bias, the closing store is the tile plus the bias, clamped at zero. -/
theorem finish_bias (x3 : Vec Ideal S1x128 .f32) (v : Vec Ideal S512x128 .f32)
    (h3 : ∀ o, x3 (ix2 (0 : Fin 1) o) = bias (ix1 o)) (r : Fin 512) (o : Fin 128) :
    k0_pay2 (F := Ideal) x3 v (ix2 r o) = max (v (ix2 r o) + bias (ix1 o)) Cert.Layer.zero := by
  rw [finish_apply, h3]

end

end Cert.KernelIdeal.Body

end
-- ==== Proof.Invariant.lean ====
/-
  What the output tile holds after every grid point.

  After the step at point t — row tile t / 4, channel t % 4 — the tile's entry (r, o) is, for node n = 512 (t / 4) + r:
  `acc (t % 4) n o`, the rows' own product plus the channels 0 to t % 4 one after the other, while t % 4 < 3, and the
  closed layer entry `out n o` at t % 4 = 3. Channel 0 starts the sum afresh, channels 1 and 2 add to what the step
  before left in the same tile, and channel 3 adds and closes; so the statement follows by induction on the point.
-/
import proofs.«157931_j77206332113740_2_alg».proof.Proof.Blocks
import proofs.«157931_j77206332113740_2_alg».proof.Proof.StepValue

noncomputable section

namespace Cert.KernelIdeal.Body

open Cert.KernelIdeal Cert.KernelIdeal.Gen Idealize.ShloMosaic Idealize.ShloMosaic.TcCoe Idealize.SL.Sem
open Idealize.ShloMosaic.ValueIdx Cert.Layer

variable (m : (ℓ : Loc nD τ sig) → Buf (Elt Ideal) ℓ)

/-- The five argument arrays on core `c`. -/
abbrev argX (c : Dev nD) : (⟨2, ![8192, 128]⟩ : Shape).Idx → EReal := m ((c : Thread nD τ).loc main_arg0)
abbrev argA (c : Dev nD) : (⟨3, ![4, 8192, 8192]⟩ : Shape).Idx → EReal := m ((c : Thread nD τ).loc main_arg1)
abbrev argW (c : Dev nD) : (⟨2, ![128, 128]⟩ : Shape).Idx → EReal := m ((c : Thread nD τ).loc main_arg2)
abbrev argWa (c : Dev nD) : (⟨3, ![4, 128, 128]⟩ : Shape).Idx → EReal := m ((c : Thread nD τ).loc main_arg3)
abbrev argB (c : Dev nD) : (⟨1, ![128]⟩ : Shape).Idx → EReal := m ((c : Thread nD τ).loc main_arg4)

/-- The step at point t adds channel `ch = t % 4`'s message for the tile's nodes. -/
theorem step_at (c : Dev nD) (t : Fin cfg0.N) (ch : Fin 4) (hch : t.val % 4 = ch.val) (prev : Vec Ideal S512x128 .f32)
    (r : Fin 512) (o : Fin 128) :
    step (F := Ideal) (grid0.coords t) (iblk m c 0 t) (iblk m c 2 t) (iblk m c 4 t) prev (ix2 r o)
      = prev (ix2 r o) + msg (argX m c) (argA m c) (argWa m c) ch (rowAt (t.val / 4) r) o := by
  obtain ⟨ec0, ec1⟩ := coords_facts t
  have hc : chan t.val = ch := Fin.ext hch
  exact step_msg (argX m c) (argA m c) (argWa m c) (grid0.coords t) ch (ec1.trans hch) (t.val / 4)
    (iblk m c 0 t) (iblk m c 2 t) (iblk m c 4 t) prev
    (fun h f => iblk_features m c t h f) (fun f o => iblk_chanWeights m c t ch f o)
    (fun r h => by rw [← hc]; exact iblk_adjacency m c t r h) r o

/-- CHANNEL 0. -/
theorem tile_first (c : Dev nD) (t : Fin cfg0.N) (h0 : t.val % 4 = 0) (r : Fin 512) (o : Fin 128) :
    outsAt0 m c t.val t.isLt (ix2 r o)
      = acc (argX m c) (argA m c) (argW m c) (argWa m c) 0 (rowAt (t.val / 4) r) o := by
  have hN : t.val < 64 := lt_of_lt_of_eq t.isLt (show cfg0.N = 64 from N_0)
  have h1 : ¬t.val % 4 = 3 := by omega
  obtain ⟨ec0, ec1⟩ := coords_facts t
  refine (congrFun (outsAt0_A m c t h0 h1) (ix2 r o)).trans ?_
  refine (congrFun (out_first c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0) (fun h => h1 ((hcond0_1 t).mp h))
    (iblk m c 0 t) (iblk m c 1 t) (iblk m c 2 t) (iblk m c 3 t) (iblk m c 4 t)) (ix2 r o)).trans ?_
  refine (step_at m c t (chan 0) (by rw [h0]; rfl) _ r o).trans ?_
  rw [acc_zero]
  refine congrArg (· + _) ?_
  exact first_self (argX m c) (argW m c) (grid0.coords t) (t.val / 4) ec0 (by omega) ((hcond0_0 t).mpr h0)
    (iblk m c 0 t) (iblk m c 1 t) (fun h f => iblk_features m c t h f) (fun f o => iblk_weights m c t f o) r o

/-- CHANNELS 1 AND 2, given what the step before left. -/
theorem tile_middle (c : Dev nD) (t : Fin cfg0.N) (h0 : ¬t.val % 4 = 0) (h1 : ¬t.val % 4 = 3) (k : ℕ)
    (hk : k + 1 = t.val % 4)
    (hprev : ∀ r o, outsAt0 m c (t.val - 1) (Nat.lt_of_le_of_lt (Nat.sub_le _ _) t.isLt) (ix2 r o)
      = acc (argX m c) (argA m c) (argW m c) (argWa m c) k (rowAt (t.val / 4) r) o)
    (r : Fin 512) (o : Fin 128) :
    outsAt0 m c t.val t.isLt (ix2 r o)
      = acc (argX m c) (argA m c) (argW m c) (argWa m c) (k + 1) (rowAt (t.val / 4) r) o := by
  refine (congrFun (outsAt0_B m c t h0 h1) (ix2 r o)).trans ?_
  refine (congrFun (out_middle c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h)) (fun h => h1 ((hcond0_1 t).mp h))
    (iblk m c 0 t) (iblk m c 1 t) (iblk m c 2 t) (iblk m c 3 t) (iblk m c 4 t)
    (outsAt0 m c (t.val - 1) (Nat.lt_of_le_of_lt (Nat.sub_le _ _) t.isLt))) (ix2 r o)).trans ?_
  refine (step_at m c t (chan (k + 1)) (by show t.val % 4 = (k + 1) % 4; omega) _ r o).trans ?_
  rw [acc_succ, hprev]

/-- CHANNEL 3, given what the step before left. -/
theorem tile_last (c : Dev nD) (t : Fin cfg0.N) (h0 : ¬t.val % 4 = 0) (h1 : t.val % 4 = 3)
    (hprev : ∀ r o, outsAt0 m c (t.val - 1) (Nat.lt_of_le_of_lt (Nat.sub_le _ _) t.isLt) (ix2 r o)
      = acc (argX m c) (argA m c) (argW m c) (argWa m c) 2 (rowAt (t.val / 4) r) o)
    (r : Fin 512) (o : Fin 128) :
    outsAt0 m c t.val t.isLt (ix2 r o)
      = out (argX m c) (argA m c) (argW m c) (argWa m c) (argB m c) (rowAt (t.val / 4) r) o := by
  refine (congrFun (outsAt0_C m c t h0 h1) (ix2 r o)).trans ?_
  refine (congrFun (out_last c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h)) ((hcond0_1 t).mpr h1)
    (iblk m c 0 t) (iblk m c 1 t) (iblk m c 2 t) (iblk m c 3 t) (iblk m c 4 t)
    (outsAt0 m c (t.val - 1) (Nat.lt_of_le_of_lt (Nat.sub_le _ _) t.isLt))) (ix2 r o)).trans ?_
  refine (finish_bias (argB m c) (iblk m c 3 t) _ (fun o => iblk_bias m c t o) r o).trans ?_
  unfold out
  refine congrArg (fun s => max (s + _) zero) ?_
  refine (step_at m c t (chan 3) (by rw [h1]; rfl) _ r o).trans ?_
  rw [acc_succ, hprev]

/-- After every point the tile holds the layer's staged value for its nodes. -/
theorem outsAt_eq (c : Dev nD) (n : ℕ) : ∀ (hn : n < cfg0.N) (r : Fin 512) (o : Fin 128),
    outsAt0 m c n hn (ix2 r o)
      = staged (argX m c) (argA m c) (argW m c) (argWa m c) (argB m c) n (rowAt (n / 4) r) o := by
  induction n with
  | zero =>
    intro hn r o
    refine (tile_first m c ⟨0, hn⟩ rfl r o).trans ?_
    unfold staged
    rw [if_neg (by decide)]
  | succ n ih =>
    intro hn r o
    have hN : n + 1 < 64 := lt_of_lt_of_eq hn (show cfg0.N = 64 from N_0)
    unfold staged
    by_cases h0 : (n + 1) % 4 = 0
    · rw [if_neg (by omega), h0]
      exact tile_first m c ⟨n + 1, hn⟩ h0 r o
    · have hdiv : (n + 1) / 4 = n / 4 := by omega
      have hprev : ∀ r o, outsAt0 m c ((⟨n + 1, hn⟩ : Fin cfg0.N).val - 1)
          (Nat.lt_of_le_of_lt (Nat.sub_le _ _) (⟨n + 1, hn⟩ : Fin cfg0.N).isLt) (ix2 r o)
          = acc (argX m c) (argA m c) (argW m c) (argWa m c) (n % 4) (rowAt ((⟨n + 1, hn⟩ : Fin cfg0.N).val / 4) r) o := by
        intro r o
        have := ih (Nat.lt_of_succ_lt hn) r o
        unfold staged at this
        rw [if_neg (by omega)] at this
        show outsAt0 m c (n + 1 - 1) _ (ix2 r o) = acc _ _ _ _ (n % 4) (rowAt ((n + 1) / 4) r) o
        rw [hdiv]
        exact this
      by_cases h1 : (n + 1) % 4 = 3
      · rw [if_pos h1]
        have h2 : n % 4 = 2 := by omega
        rw [h2] at hprev
        exact tile_last m c ⟨n + 1, hn⟩ h0 h1 hprev r o
      · rw [if_neg h1]
        have hk : n % 4 + 1 = (n + 1) % 4 := by omega
        rw [← hk]
        exact tile_middle m c ⟨n + 1, hn⟩ h0 h1 (n % 4) hk hprev r o

end Cert.KernelIdeal.Body

end
-- ==== Proof.Final.lean ====
/-
  The result array after the run.

  A row tile is written back once, after its channel-3 step, when it holds the closed layer entries of its 512 nodes;
  the sixteen row tiles cover the 8192 rows. So the result array ends holding the layer's result.
-/
import proofs.«157931_j77206332113740_2_alg».proof.Proof.Invariant
import proofs.«157931_j77206332113740_2_alg».proof.Proof.Gen.KernelIdeal.Value

noncomputable section

namespace Cert.KernelIdeal.Body

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- The layer's result of core `c`'s argument arrays, as contents of the result array. -/
abbrev layerResult (c : Dev nD) : Buf (Elt Ideal) ((c : Thread nD τ).loc main_v4) :=
  result (argX m c) (argA m c) (argW m c) (argWa m c) (argB m c)

/-- What a flushing point writes back is its row tile of the layer's result. -/
theorem flushed_eq (c : Dev nD) (t : Fin cfg0.N) (hf : (cfg0.win 5).flush t = true) :
    (dats m 0 c).flushed 5 t = ((cfg0.win 5).blk t).view.read (Elt Ideal) (layerResult m c) := by
  have h3 : t.val % 4 = 3 := (flush0_5 t).mp hf
  have hN : t.val < 64 := lt_of_lt_of_eq t.isLt (show cfg0.N = 64 from N_0)
  obtain ⟨-, -, -, -, -, -, -, -, -, -, -, -, e0, e1⟩ := index_facts t
  rw [Cert.KernelIdeal.Value.flushed5]
  funext y
  obtain ⟨r, o, rfl⟩ : ∃ (r : Fin 512) (o : Fin 128), y = ix2 r o := ⟨y 0, y 1, eq_ix2 (n0 := 512) (n1 := 128) y⟩
  rw [View.read_apply]
  show outsAt0 m c t.val t.isLt (ix2 r o) = layerResult m c (((cfg0.win 5).blk t).view.emb (ix2 r o))
  rw [outsAt_eq m c t.val t.isLt r o]
  unfold staged
  rw [if_pos h3]
  show out _ _ _ _ _ (rowAt (t.val / 4) r) o = out _ _ _ _ _ ((((cfg0.win 5).blk t).view.emb (ix2 r o)) 0) ((((cfg0.win 5).blk t).view.emb (ix2 r o)) 1)
  have hr := r.isLt
  congr 1
  · apply Fin.ext
    show (512 * (t.val / 4) + r.val) % 8192 = win0_5.index t (0 : Fin 2) * 512 + 1 * r.val
    omega
  · apply Fin.ext
    show o.val = win0_5.index t (1 : Fin 2) * 128 + 1 * o.val
    omega

/-- An index is in point t's block iff each coordinate is in the block's range on its axis. -/
theorem mem_tile (t : Fin cfg0.N) (i : S8192x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v4).slice (win0_5.rect t)).set ↔ _
  rw [View.set_slice_whole, Rect.mem_set_unit]
  exact Iff.rfl

/-- Row n is in the tile written back after point 4 (n / 512) + 3. -/
theorem covered (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hlt : 4 * ((i 0).val / 512) + 3 < cfg0.N := by rw [show cfg0.N = 64 from N_0]; omega
  refine ⟨⟨4 * ((i 0).val / 512) + 3, hlt⟩, (flush0_5 _).mpr (by show (4 * ((i 0).val / 512) + 3) % 4 = 3; omega), ?_⟩
  obtain ⟨-, -, -, -, -, -, -, -, -, -, -, -, e0, e1⟩ := index_facts ⟨4 * ((i 0).val / 512) + 3, hlt⟩
  rw [mem_tile]
  intro a
  match a with
  | ⟨0, _⟩ =>
    show win0_5.index ⟨4 * ((i 0).val / 512) + 3, hlt⟩ (0 : Fin 2) * 512 ≤ (i 0).val ∧ (i 0).val < win0_5.index ⟨4 * ((i 0).val / 512) + 3, hlt⟩ (0 : Fin 2) * 512 + 512
    rw [e0]; dsimp only; omega
  | ⟨1, _⟩ =>
    show win0_5.index ⟨4 * ((i 0).val / 512) + 3, hlt⟩ (1 : Fin 2) * 128 ≤ (i 1).val ∧ (i 1).val < win0_5.index ⟨4 * ((i 0).val / 512) + 3, hlt⟩ (1 : Fin 2) * 128 + 128
    rw [e1]; omega

/-- The result array after the run is the layer's result. -/
theorem final (c : Dev nD) : (dats m 0 c).arrAt 5 cfg0.N = layerResult m c :=
  (dats m 0 c).arrAt_eq_of_cover 5 (layerResult m c) (flushed_eq m c) covered

/-- The run: the result array at the layer's result, the arguments unchanged. -/
theorem run : θ_run defs (onTc (τ := τ) (main (F := Ideal))) ⟨m, fun _ => 0, ρ⟩ fun r => ∀ c : Dev nD,
      r.2.mem ((c : Thread nD τ).loc main_v4) = layerResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Body

end
-- ==== Proof.Reference.lean ====
/-
  The reference computes the layer.

  Read stage by stage at (n, o): the product X W at (n, o) is the sum over the 128 features; the batched products
  give, for each channel c, ((A_c X) Wa_c)[n, o] as a sum over features of a sum over the 8192 nodes; each is clamped
  at zero, the four are summed from zero, the rows' own product and the bias are added, and the total is clamped at
  zero: the layer's entry with its channels added as one sum, which `acc_three` regroups.
-/
import proofs.«157931_j77206332113740_2_alg».proof.Proof.Gen.ReferenceIdeal.Read
import proofs.«157931_j77206332113740_2_alg».proof.Proof.Spec

noncomputable section

namespace Cert.ReferenceIdeal.Layer

open Cert.ReferenceIdeal Cert.ReferenceIdeal.Read Idealize.ShloMosaic Idealize.ShloMosaic.ValueIdx Cert.Layer

theorem l0 (n : Fin 8192) (o : Fin 128) (k : Fin 128) : lidx_main_v0 (ix2 n o) k = ix2 n k :=
  funext fun a => Fin.ext (by match a with | ⟨0, _⟩ => rfl | ⟨1, _⟩ => rfl)
theorem r0 (n : Fin 8192) (o : Fin 128) (k : Fin 128) : ridx_main_v0 (ix2 n o) k = ix2 k o :=
  funext fun a => Fin.ext (by match a with | ⟨0, _⟩ => rfl | ⟨1, _⟩ => rfl)
theorem l1 (c : Fin 4) (n : Fin 8192) (f : Fin 128) (h : Fin 8192) : lidx_main_v1 (ix3 c n f) h = ix3 c n h :=
  funext fun a => Fin.ext (by match a with | ⟨0, _⟩ => rfl | ⟨1, _⟩ => rfl | ⟨2, _⟩ => rfl)
theorem r1 (c : Fin 4) (n : Fin 8192) (f : Fin 128) (h : Fin 8192) : ridx_main_v1 (ix3 c n f) h = ix2 h f :=
  funext fun a => Fin.ext (by match a with | ⟨0, _⟩ => rfl | ⟨1, _⟩ => rfl)
theorem l2 (c : Fin 4) (n : Fin 8192) (o : Fin 128) (f : Fin 128) : lidx_main_v2 (ix3 c n o) f = ix3 c n f :=
  funext fun a => Fin.ext (by match a with | ⟨0, _⟩ => rfl | ⟨1, _⟩ => rfl | ⟨2, _⟩ => rfl)
theorem r2 (c : Fin 4) (n : Fin 8192) (o : Fin 128) (f : Fin 128) : ridx_main_v2 (ix3 c n o) f = ix3 c f o :=
  funext fun a => Fin.ext (by match a with | ⟨0, _⟩ => rfl | ⟨1, _⟩ => rfl | ⟨2, _⟩ => rfl)
theorem i4 (n : Fin 8192) (o : Fin 128) (c : Fin 4) : idx_main_v4 (ix2 n o) c = ix3 c n o :=
  funext fun a => Fin.ext (by match a with | ⟨0, _⟩ => rfl | ⟨1, _⟩ => rfl | ⟨2, _⟩ => rfl)
theorem i7 (n : Fin 8192) (o : Fin 128) : idx_main_v7 (ix2 n o) = ix2 (0 : Fin 1) o :=
  funext fun a => Fin.ext (by match a with | ⟨0, _⟩ => rfl | ⟨1, _⟩ => rfl)
theorem i6 (o : Fin 128) : idx_main_v6 (ix2 (0 : Fin 1) o) = ix1 o :=
  funext fun a => Fin.ext (by match a with | ⟨0, _⟩ => rfl)

/-- The reference's last stage is the layer's result array. -/
theorem reference_eq (X : (⟨2, ![8192, 128]⟩ : Shape).Idx → EReal) (A : (⟨3, ![4, 8192, 8192]⟩ : Shape).Idx → EReal)
    (W : (⟨2, ![128, 128]⟩ : Shape).Idx → EReal) (Wa : (⟨3, ![4, 128, 128]⟩ : Shape).Idx → EReal)
    (bias : (⟨1, ![128]⟩ : Shape).Idx → EReal) :
    val_main_v9 (F := Ideal) X A W Wa bias = result X A W Wa bias := by
  funext i
  obtain ⟨n, o, rfl⟩ : ∃ (n : Fin 8192) (o : Fin 128), i = ix2 n o := ⟨i 0, i 1, eq_ix2 i⟩
  rw [val_main_v9_apply, val_main_v8_apply, val_main_v5_apply, val_main_v0_apply, val_main_v4_apply,
    val_main_v7_apply, val_main_v6_apply, val_main_call1_v0_apply, val_main_call1_cst_apply, val_main_cst_apply]
  simp only [val_main_v3_apply, val_main_v2_apply, val_main_v1_apply, val_main_call0_v0_apply,
    val_main_call0_cst_apply, l0, r0, l1, r1, l2, r2, i4, i7, i6, Ideal.maximumf_def, Ideal.addf_def, Ideal.ofBits_def]
  show _ = out X A W Wa bias n o
  unfold out
  rw [acc_three]
  rfl

end Cert.ReferenceIdeal.Layer

end
-- ==== Proof.lean ====
/-
  A graph-convolution layer over four adjacency channels, tiled, against its plain formula.

  For features X [8192, 128], adjacency matrices A_c [8192, 8192] (c = 0..3), weights W [128, 128], per-channel
  weights Wa_c [128, 128] and a bias b [128], both programs compute, at node n and output feature o,

      max ( X W [n, o]  +  sum over c of  max ( (A_c X) Wa_c [n, o], 0 )  +  b[o] ,  0 ).

  The tiled program walks a grid of 16 row tiles by 4 channels. A step holds 512 rows of one channel's adjacency
  matrix; it forms their aggregate A_c X as four partial products over 2048 columns each, added one after the other
  to a zero block, multiplies by the channel's weights, clamps at zero and adds the result into the row tile's output
  block, which stays in place over the four channels: channel 0 first sets it to the rows' own product X W, channel 3
  adds the bias and clamps once more, and the block is written back after channel 3. The plain program contracts all
  8192 columns at once and sums the four clamped channels in one reduction starting from zero.

  Over the extended reals a change of float format is the identity and every product is the exact sum of products,
  so the two differ only in how sums are grouped: 8192 terms as four runs of 2048 added to zero one after the other,
  and four channel terms added to X W one after the other rather than summed first. Addition of extended reals is
  commutative and associative with zero as its unit, so both regroupings hold for every input, finite or not; the
  precondition is not used for the values.

  The modules: `Spec` states the layer and the two regroupings; `Payloads`, `Cases` and `StepValue` read one grid
  step's stores entry by entry; `Blocks` says what each block holds; `Invariant` is the induction over the grid
  points; `Final` reads the result array; `Reference` reads the plain program.
-/
import proofs.«157931_j77206332113740_2_alg».proof.Defs
import proofs.«157931_j77206332113740_2_alg».proof.Proof.Gen.Kernel
import proofs.«157931_j77206332113740_2_alg».proof.Proof.Gen.Kernel.Frame
import proofs.«157931_j77206332113740_2_alg».proof.Proof.Gen.KernelIdeal
import proofs.«157931_j77206332113740_2_alg».proof.Proof.Gen.KernelIdeal.Frame
import proofs.«157931_j77206332113740_2_alg».proof.Proof.Gen.KernelIdeal.Value
import proofs.«157931_j77206332113740_2_alg».proof.Proof.Gen.ReferenceIdeal
import proofs.«157931_j77206332113740_2_alg».proof.Proof.Gen.ReferenceIdeal.Run
import proofs.«157931_j77206332113740_2_alg».proof.Proof.Gen.ReferenceIdeal.Read
import proofs.«157931_j77206332113740_2_alg».proof.Proof.Gen.Pre_finite_inputs
import proofs.«157931_j77206332113740_2_alg».proof.Proof.Final
import proofs.«157931_j77206332113740_2_alg».proof.Proof.Reference
import Idealize.ShloMosaic.Adequacy
import Idealize.ShloMosaic.Init

noncomputable section

namespace Cert.Proof

open Idealize.ShloMosaic Idealize.ShloMosaic.TcCoe Idealize.SL.Sem

/-- The tiled program, as printed, runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the printed program and its reading over the extended reals. -/
theorem preserves : Cert.preserves_Kernel_KernelIdeal := trivial

/-- Both programs end with the layer's result of arguments that agree. -/
theorem algebraic : Cert.algebraic_KernelIdeal_ReferenceIdeal := by
  intro m ρ m' ρ' _ hagree
  refine ⟨fun c => Cert.KernelIdeal.Body.layerResult m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _ _ _).trans ?_
  refine (Cert.ReferenceIdeal.Layer.reference_eq _ _ _ _ _).trans ?_
  obtain ⟨a0, a1, a2, a3, a4⟩ := hagree c
  rw [a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
